-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S4096x64x128 : Shape := ⟨3, ![4096, 64, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S4096x64x128 : S_.BroadcastsInDim S4096x64x128 (![] : Fin 0 → Fin S4096x64x128.rank)
  reducesTo_S4096x64x128_S_d0_1_2 : S4096x64x128.ReducesTo [0, 1, 2] S_

variable [Facts]

def fn_part2 {F : FTy → Type} [FloatOps F] (main_arg7 : FVec F S4096x64x128 .f32) (main_arg8 : FVec F S4096x64x128 .f32) (main_arg9 : FVec F S4096x64x128 .f32) (main_v33 : IVec S_ 1) : IVec S_ 1 :=
  let main_v34 : FVec F S4096x64x128 .f32 := Host.absf main_arg7
  let main_cst_12 : FVec F S_ .f32 := constant S_ .f32 0x7F800000#32
  let main_v35 : FVec F S4096x64x128 .f32 := broadcastInDim S4096x64x128 ![] bcast_S_S4096x64x128 main_cst_12
  let main_v36 : IVec S4096x64x128 1 := cmpf .olt main_v34 main_v35
  let main_c_13 : IVec S_ 1 := constantI S_ 1 1#1
  let main_v37 : IVec S_ 1 := (fun x v => Host.reduce IntOp.andi x v reducesTo_S4096x64x128_S_d0_1_2 h_S_) main_v36 main_c_13
  let main_v38 : IVec S_ 1 := andi main_v33 main_v37
  let main_v39 : FVec F S4096x64x128 .f32 := Host.absf main_arg8
  let main_cst_14 : FVec F S_ .f32 := constant S_ .f32 0x7F800000#32
  let main_v40 : FVec F S4096x64x128 .f32 := broadcastInDim S4096x64x128 ![] bcast_S_S4096x64x128 main_cst_14
  let main_v41 : IVec S4096x64x128 1 := cmpf .olt main_v39 main_v40
  let main_c_15 : IVec S_ 1 := constantI S_ 1 1#1
  let main_v42 : IVec S_ 1 := (fun x v => Host.reduce IntOp.andi x v reducesTo_S4096x64x128_S_d0_1_2 h_S_) main_v41 main_c_15
  let main_v43 : IVec S_ 1 := andi main_v38 main_v42
  let main_v44 : FVec F S4096x64x128 .f32 := Host.absf main_arg9
  let main_cst_16 : FVec F S_ .f32 := constant S_ .f32 0x7F800000#32
  let main_v45 : FVec F S4096x64x128 .f32 := broadcastInDim S4096x64x128 ![] bcast_S_S4096x64x128 main_cst_16
  let main_v46 : IVec S4096x64x128 1 := cmpf .olt main_v44 main_v45
  let main_c_17 : IVec S_ 1 := constantI S_ 1 1#1
  let main_v47 : IVec S_ 1 := (fun x v => Host.reduce IntOp.andi x v reducesTo_S4096x64x128_S_d0_1_2 h_S_) main_v46 main_c_17
  let main_v48 : IVec S_ 1 := andi main_v43 main_v47
  main_v48

def fn_part1 {F : FTy → Type} [FloatOps F] (main_arg4 : FVec F S64x4096x128 .f32) (main_arg5 : FVec F S64x4096x128 .f32) (main_arg6 : FVec F S64x4096x128 .f32) (main_arg7 : FVec F S4096x64x128 .f32) (main_arg8 : FVec F S4096x64x128 .f32) (main_arg9 : FVec F S4096x64x128 .f32) (main_v13 : IVec S_ 1) (main_v16 : IVec S64x4096x128 1) : IVec S_ 1 :=
  let main_c_5 : IVec S_ 1 := constantI S_ 1 1#1
  let main_v17 : IVec S_ 1 := (fun x v => Host.reduce IntOp.andi x v reducesTo_S64x4096x128_S_d0_1_2 h_S_) main_v16 main_c_5
  let main_v18 : IVec S_ 1 := andi main_v13 main_v17
  let main_v19 : FVec F S64x4096x128 .f32 := Host.absf main_arg4
  let main_cst_6 : FVec F S_ .f32 := constant S_ .f32 0x7F800000#32
  let main_v20 : FVec F S64x4096x128 .f32 := broadcastInDim S64x4096x128 ![] bcast_S_S64x4096x128 main_cst_6
  let main_v21 : IVec S64x4096x128 1 := cmpf .olt main_v19 main_v20
  let main_c_7 : IVec S_ 1 := constantI S_ 1 1#1
  let main_v22 : IVec S_ 1 := (fun x v => Host.reduce IntOp.andi x v reducesTo_S64x4096x128_S_d0_1_2 h_S_) main_v21 main_c_7
  let main_v23 : IVec S_ 1 := andi main_v18 main_v22
  let main_v24 : FVec F S64x4096x128 .f32 := Host.absf main_arg5
  let main_cst_8 : FVec F S_ .f32 := constant S_ .f32 0x7F800000#32
  let main_v25 : FVec F S64x4096x128 .f32 := broadcastInDim S64x4096x128 ![] bcast_S_S64x4096x128 main_cst_8
  let main_v26 : IVec S64x4096x128 1 := cmpf .olt main_v24 main_v25
  let main_c_9 : IVec S_ 1 := constantI S_ 1 1#1
  let main_v27 : IVec S_ 1 := (fun x v => Host.reduce IntOp.andi x v reducesTo_S64x4096x128_S_d0_1_2 h_S_) main_v26 main_c_9
  let main_v28 : IVec S_ 1 := andi main_v23 main_v27
  let main_v29 : FVec F S64x4096x128 .f32 := Host.absf main_arg6
  let main_cst_10 : FVec F S_ .f32 := constant S_ .f32 0x7F800000#32
  let main_v30 : FVec F S64x4096x128 .f32 := broadcastInDim S64x4096x128 ![] bcast_S_S64x4096x128 main_cst_10
  let main_v31 : IVec S64x4096x128 1 := cmpf .olt main_v29 main_v30
  let main_c_11 : IVec S_ 1 := constantI S_ 1 1#1
  let main_v32 : IVec S_ 1 := (fun x v => Host.reduce IntOp.andi x v reducesTo_S64x4096x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S64x4096x128 .f32) (main_arg1 : FVec F S64x4096x128 .f32) (main_arg2 : FVec F S64x4096x128 .f32) (main_arg3 : FVec F S64x4096x128 .f32) (main_arg4 : FVec F S64x4096x128 .f32) (main_arg5 : FVec F S64x4096x128 .f32) (main_arg6 : FVec F S64x4096x128 .f32) (main_arg7 : FVec F S4096x64x128 .f32) (main_arg8 : FVec F S4096x64x128 .f32) (main_arg9 : FVec F S4096x64x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  let main_v9 : FVec F S64x4096x128 .f32 := Host.absf main_arg2
  let main_cst_2 : FVec F S_ .f32 := constant S_ .f32 0x7F800000#32
  let main_v10 : FVec F S64x4096x128 .f32 := broadcastInDim S64x4096x128 ![] bcast_S_S64x4096x128 main_cst_2
  let main_v11 : IVec S64x4096x128 1 := cmpf .olt main_v9 main_v10
  let main_c_3 : IVec S_ 1 := constantI S_ 1 1#1
  let main_v12 : IVec S_ 1 := (fun x v => Host.reduce IntOp.andi x v reducesTo_S64x4096x128_S_d0_1_2 h_S_) main_v11 main_c_3
  let main_v13 : IVec S_ 1 := andi main_v8 main_v12
  let main_v14 : FVec F S64x4096x128 .f32 := Host.absf main_arg3
  let main_cst_4 : FVec F S_ .f32 := constant S_ .f32 0x7F800000#32
  let main_v15 : FVec F S64x4096x128 .f32 := broadcastInDim S64x4096x128 ![] bcast_S_S64x4096x128 main_cst_4
  let main_v16 : IVec S64x4096x128 1 := cmpf .olt main_v14 main_v15
  fn_part1 (F := F) main_arg4 main_arg5 main_arg6 main_arg7 main_arg8 main_arg9 main_v13 main_v16
-- ==== Kernel.lean ====
abbrev S64x4096x128 : Shape := ⟨3, ![64, 4096, 128]⟩
abbrev S4096x64x128 : Shape := ⟨3, ![4096, 64, 128]⟩
abbrev S4096x128 : Shape := ⟨2, ![4096, 128]⟩
abbrev S64x64x128 : Shape := ⟨3, ![64, 64, 128]⟩
abbrev S64x128 : Shape := ⟨2, ![64, 128]⟩
abbrev S_ : Shape := ⟨0, ![]⟩
abbrev S4096 : Shape := ⟨1, ![4096]⟩

abbrev nBuf : Space → Nat
  | .hbm => 23
  | .vmem => 20
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S64x4096x128, .f32⟩
  | .hbm, ⟨4, _⟩ => ⟨S64x4096x128, .f32⟩
  | .hbm, ⟨5, _⟩ => ⟨S64x4096x128, .f32⟩
  | .hbm, ⟨6, _⟩ => ⟨S64x4096x128, .f32⟩
  | .hbm, ⟨7, _⟩ => ⟨S4096x64x128, .f32⟩
  | .hbm, ⟨8, _⟩ => ⟨S4096x64x128, .f32⟩
  | .hbm, ⟨9, _⟩ => ⟨S4096x64x128, .f32⟩
  | .hbm, ⟨10, _⟩ => ⟨S4096x128, .f32⟩
  | .hbm, ⟨11, _⟩ => ⟨S4096x128, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S64x64x128, .f32⟩
  | .local _ .vmem, ⟨1, _⟩ => ⟨S64x64x128, .f32⟩
  | .local _ .vmem, ⟨2, _⟩ => ⟨S64x64x128, .f32⟩
  | .local _ .vmem, ⟨3, _⟩ => ⟨S64x64x128, .f32⟩
  | .local _ .vmem, ⟨4, _⟩ => ⟨S64x64x128, .f32⟩
  | .local _ .vmem, ⟨5, _⟩ => ⟨S64x64x128, .f32⟩
  | .local _ .vmem, ⟨6, _⟩ => ⟨S64x64x128, .f32⟩
  | .local _ .vmem, ⟨7, _⟩ => ⟨S64x64x128, .f32⟩
  | .local _ .vmem, ⟨8, _⟩ => ⟨S64x128, .f32⟩
  | .local _ .vmem, ⟨9, _⟩ => ⟨S64x128, .f32⟩
  | .local _ .vmem, ⟨10, _⟩ => ⟨S64x64x128, .f32⟩
  | .local _ .vmem, ⟨11, _⟩ => ⟨S64x64x128, .f32⟩
  | .local _ .vmem, ⟨12, _⟩ => ⟨S64x64x128, .f32⟩
  | .local _ .vmem, ⟨13, _⟩ => ⟨S64x64x128, .f32⟩
  | .local _ .vmem, ⟨14, _⟩ => ⟨S64x64x128, .f32⟩
  | .local _ .vmem, ⟨15, _⟩ => ⟨S64x64x128, .f32⟩
  | .local _ .vmem, ⟨16, _⟩ => ⟨S64x64x128, .f32⟩
  | .local _ .vmem, ⟨17, _⟩ => ⟨S64x64x128, .f32⟩
  | .local _ .vmem, ⟨18, _⟩ => ⟨S64x128, .f32⟩
  | .local _ .vmem, ⟨19, _⟩ => ⟨S64x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S64x64x128_S64x64x128_0_0_0 : ∀ a, (![0, 0, 0] : Fin 3 → Nat) a + S64x64x128.size a ≤ S64x64x128.size a
  h_S64x64x128 : 0 < S64x64x128.numel
  reduces_S64x64x128_S64x128 : S64x64x128.Reduces [0] S64x128
  inb_S64x128_S64x128_0_0 : ∀ a, (![0, 0] : Fin 2 → Nat) a + S64x128.size a ≤ S64x128.size a
  h_S64x128 : 0 < S64x128.numel
  transposes_S64x64x128_p1_0_2_S64x64x128 : S64x64x128.Transposes [1, 0, 2] S64x64x128
  reducesTo_S4096x128_S4096_d1 : S4096x128.ReducesTo [1] S4096
  h_S_ : 0 < S_.numel
  reducesTo_S4096x128_S_d0_1 : S4096x128.ReducesTo [0, 1] S_
  reducesTo_S4096_S_d0 : S4096.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S64x4096x128.size a
  hwx0_0 : ∀ i : grid0.Coords, EltTy.bits .f32 = 32 ∨ (Rect.block (s := S64x4096x128) S64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x128.size a ≤ S64x4096x128.size a
  hwx0_1 : ∀ i : grid0.Coords, EltTy.bits .f32 = 32 ∨ (Rect.block (s := S64x4096x128) S64x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S64x4096x128.size a
  hwx0_2 : ∀ i : grid0.Coords, EltTy.bits .f32 = 32 ∨ (Rect.block (s := S64x4096x128) S64x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x128.size a ≤ S64x4096x128.size a
  hwx0_3 : ∀ i : grid0.Coords, EltTy.bits .f32 = 32 ∨ (Rect.block (s := S64x4096x128) S64x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S4096x128.size a
  hwx0_4 : ∀ i : grid0.Coords, EltTy.bits .f32 = 32 ∨ (Rect.block (s := S4096x128) S64x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x64x128.size a ≤ S64x4096x128.size a
  hwx1_0 : ∀ i : grid1.Coords, EltTy.bits .f32 = 32 ∨ (Rect.block (s := S64x4096x128) S64x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64x128.size a ≤ S64x4096x128.size a
  hwx1_1 : ∀ i : grid1.Coords, EltTy.bits .f32 = 32 ∨ (Rect.block (s := S64x4096x128) S64x64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x64x128.size a ≤ S64x4096x128.size a
  hwx1_2 : ∀ i : grid1.Coords, EltTy.bits .f32 = 32 ∨ (Rect.block (s := S64x4096x128) S64x64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x64x128.size a ≤ S4096x64x128.size a
  hwx1_3 : ∀ i : grid1.Coords, EltTy.bits .f32 = 32 ∨ (Rect.block (s := S4096x64x128) S64x64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S4096x128.size a
  hwx1_4 : ∀ i : grid1.Coords, EltTy.bits .f32 = 32 ∨ (Rect.block (s := S4096x128) S64x128.size (cc1_transform_4 i) (hinb1_4 i)).WholeWords (EltTy.packing .f32)

variable [Facts₀]

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S64x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x4096x128 : Shape := ⟨3, ![64, 4096, 128]⟩
abbrev S4096x64x128 : Shape := ⟨3, ![4096, 64, 128]⟩
abbrev S_ : Shape := ⟨0, ![]⟩
abbrev S4096 : Shape := ⟨1, ![4096]⟩

abbrev nBuf : Space → Nat
  | .hbm => 56
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S64x4096x128, .f32⟩
  | .hbm, ⟨4, _⟩ => ⟨S64x4096x128, .f32⟩
  | .hbm, ⟨5, _⟩ => ⟨S64x4096x128, .f32⟩
  | .hbm, ⟨6, _⟩ => ⟨S64x4096x128, .f32⟩
  | .hbm, ⟨7, _⟩ => ⟨S4096x64x128, .f32⟩
  | .hbm, ⟨8, _⟩ => ⟨S4096x64x128, .f32⟩
  | .hbm, ⟨9, _⟩ => ⟨S4096x64x128, .f32⟩
  | .hbm, ⟨10, _⟩ => ⟨S64x4096x128, .f32⟩
  | .hbm, ⟨11, _⟩ => ⟨S64x4096x128, .f32⟩
  | .hbm, ⟨12, _⟩ => ⟨S64x4096x128, .f32⟩
  | .hbm, ⟨13, _⟩ => ⟨S64x4096x128, .f32⟩
  | .hbm, ⟨14, _⟩ => ⟨S64x4096x128, .f32⟩
  | .hbm, ⟨15, _⟩ => ⟨S64x4096x128, .f32⟩
  | .hbm, ⟨16, _⟩ => ⟨S64x4096x128, .f32⟩
  | .hbm, ⟨17, _⟩ => ⟨S64x4096x128, .f32⟩
  | .hbm, ⟨18, _⟩ => ⟨S64x4096x128, .f32⟩
  | .hbm, ⟨19, _⟩ => ⟨S_, .f32⟩
  | .hbm, ⟨20, _⟩ => ⟨S64x4096x128, .f32⟩
  | .hbm, ⟨21, _⟩ => ⟨S64x4096x128, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S64x4096x128, .f32⟩
  | .hbm, ⟨28, _⟩ => ⟨S64x4096x128, .f32⟩
  | .hbm, ⟨29, _⟩ => ⟨S64x4096x128, .f32⟩
  | .hbm, ⟨30, _⟩ => ⟨S_, .f32⟩
  | .hbm, ⟨31, _⟩ => ⟨S64x4096x128, .f32⟩
  | .hbm, ⟨32, _⟩ => ⟨S64x4096x128, .f32⟩
  | .hbm, ⟨33, _⟩ => ⟨S64x4096x128, .f32⟩
  | .hbm, ⟨34, _⟩ => ⟨S64x4096x128, .f32⟩
  | .hbm, ⟨35, _⟩ => ⟨S64x4096x128, .f32⟩
  | .hbm, ⟨36, _⟩ => ⟨S64x4096x128, .f32⟩
  | .hbm, ⟨37, _⟩ => ⟨S64x4096x128, .f32⟩
  | .hbm, ⟨38, _⟩ => ⟨S_, .f32⟩
  | .hbm, ⟨39, _⟩ => ⟨S64x4096x128, .f32⟩
  | .hbm, ⟨40, _⟩ => ⟨S64x4096x128, .f32⟩
  | .hbm, ⟨41, _⟩ => ⟨S_, .f32⟩
  | .hbm, ⟨42, _⟩ => ⟨S64x4096x128, .f32⟩
  | .hbm, ⟨43, _⟩ => ⟨S64x4096x128, .f32⟩
  | .hbm, ⟨44, _⟩ => ⟨S64x4096x128, .f32⟩
  | .hbm, ⟨45, _⟩ => ⟨S64x4096x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S64x4096x128 : S_.BroadcastsInDim S64x4096x128 (![] : Fin 0 → Fin S64x4096x128.rank)
  reducesTo_S64x4096x128_S4096_d0_2 : S64x4096x128.ReducesTo [0, 2] S4096
  h_S_ : 0 < S_.numel
  bcast_S_S4096 : S_.BroadcastsInDim S4096 (![] : Fin 0 → Fin S4096.rank)
  transposes_S4096x64x128_S64x4096x128_1_0_2 : S4096x64x128.Transposes [1, 0, 2] S64x4096x128
  reducesTo_S64x4096x128_S_d0_1_2 : S64x4096x128.ReducesTo [0, 1, 2] S_
  reducesTo_S4096_S_d0 : S4096.ReducesTo [0] S_

variable [Facts₀]

class Facts : Prop extends Facts₀ where

variable [Facts]
-- ==== Proof.LossSpec.lean ====
/-
  The variational loss both programs compute, written once over the extended reals.

  Inputs: seven arrays indexed (t, b, d) with t < 64 time steps, b < 4096 batch rows, d < 128 features — the prior's
  mean and log-variance, the observation, the encoder's mean and log-variance, the decoder's mean and log-variance —
  and a mask indexed (b, t, d).

  * The Kullback–Leibler term of one entry, both "std" fields being log-variances:
      kld = (ps - es) + (exp es + (em - pm)²) · exp (-ps) - 1.
  * The Gaussian log-density of one masked entry, with ls = ½ · (ds · mk) and z = (x·mk - dm·mk) · exp (-ls):
      logp = (c - ls) - (½ · z) · z,      c the float nearest to -½ · log 2π.
  * The loss:  ( Σ_b ½ · Σ_t Σ_d kld ) / 4096  +  ( -(Σ_t Σ_b Σ_d logp) ) / 4096.

  The kernel reaches it through two partial arrays indexed (b, d): `kldOut` = ½ · Σ_t kld and `nllOut` = Σ_t (-logp).
  The float constants stay the words the programs print; only ½ (a non-negative real) and c (a real) are evaluated.
-/
import Idealize.ShloMosaic.PureOps.Ideal
import Idealize.ShloMosaic.Lib.ValueIdx

noncomputable section

open scoped BigOperators

namespace Cert.Loss

open Idealize.ShloMosaic Idealize.ShloMosaic.ValueIdx

abbrev TBD : Shape := ⟨3, ![64, 4096, 128]⟩
abbrev BTD : Shape := ⟨3, ![4096, 64, 128]⟩
abbrev BD : Shape := ⟨2, ![4096, 128]⟩

/-- The float words of the constants. -/
abbrev half : EReal := Ideal.ofBits .f32 0x3F000000#32
abbrev one : EReal := Ideal.ofBits .f32 0x3F800000#32
abbrev logc : EReal := Ideal.ofBits .f32 0xBF6B3F8E#32
abbrev nB : EReal := Ideal.ofBits .f32 0x45800000#32

/-- `0.5` denotes the real one half. -/
theorem half_eq : half = ((1 / 2 : ℝ) : EReal) := by
  simp [half, Ideal.ofBits, Ideal.ieee, -EReal.coe_mul]; norm_num

/-- The constant of the log-density denotes a real number. -/
theorem logc_real : ∃ r : ℝ, logc = (r : EReal) := by
  simp [logc, Ideal.ofBits, Ideal.ieee, -EReal.coe_mul]
  exact ⟨_, (EReal.coe_neg _).symm⟩

/-- One entry's Kullback–Leibler term. -/
def kld (pm ps em es : EReal) : EReal :=
  ((ps - es) + (Ideal.exp es + (em - pm) * (em - pm)) * Ideal.exp (-ps)) - one

/-- One masked entry's Gaussian log-density. -/
def logp (x dm ds mk : EReal) : EReal :=
  (logc - half * (ds * mk))
    - (half * ((x * mk - dm * mk) * Ideal.exp (-(half * (ds * mk))))) * ((x * mk - dm * mk) * Ideal.exp (-(half * (ds * mk))))

/-- The two terms at the entry (t, b, d) of the arrays; the mask is stored (b, t, d). -/
def kldAt (pm ps em es : TBD.Idx → EReal) (t : Fin 64) (b : Fin 4096) (d : Fin 128) : EReal :=
  kld (pm (ix3 t b d)) (ps (ix3 t b d)) (em (ix3 t b d)) (es (ix3 t b d))
def logpAt (x dm ds : TBD.Idx → EReal) (mk : BTD.Idx → EReal) (t : Fin 64) (b : Fin 4096) (d : Fin 128) : EReal :=
  logp (x (ix3 t b d)) (dm (ix3 t b d)) (ds (ix3 t b d)) (mk (ix3 b t d))

/-- The two partial arrays the kernel leaves, indexed (b, d). -/
def kldOut (pm ps em es : TBD.Idx → EReal) : BD.Idx → EReal :=
  fun j => half * ∑ t : Fin 64, kldAt pm ps em es t (j 0) (j 1)
def nllOut (x dm ds : TBD.Idx → EReal) (mk : BTD.Idx → EReal) : BD.Idx → EReal :=
  fun j => ∑ t : Fin 64, -(logpAt x dm ds mk t (j 0) (j 1))

/-- The loss. -/
def loss (pm ps x em es dm ds : TBD.Idx → EReal) (mk : BTD.Idx → EReal) : EReal :=
  Ideal.div (∑ b : Fin 4096, half * ∑ t : Fin 64, ∑ d : Fin 128, kldAt pm ps em es t b d) nB
    + Ideal.div (-(∑ t : Fin 64, ∑ b : Fin 4096, ∑ d : Fin 128, logpAt x dm ds mk t b d)) nB

/-- On real entries the log-density is a real number. -/
theorem logp_real (x dm ds mk : ℝ) : ∃ r : ℝ, logp (x : EReal) (dm : EReal) (ds : EReal) (mk : EReal) = (r : EReal) := by
  obtain ⟨c, hc⟩ := logc_real
  unfold logp
  rw [hc, half_eq]
  simp only [← EReal.coe_mul, ← EReal.coe_sub, ← EReal.coe_neg, Ideal.exp_coe]
  exact ⟨_, rfl⟩

end Cert.Loss

end
-- ==== Proof.Payloads.lean ====
/-
  What the two kernel bodies store, entry by entry.

  Each body loads four (64, 64, 128) blocks — 64 time steps of 64 batch rows — and stores one (64, 128) block.  Entry
  (p, q) of the stored block is a sum over the 64 time steps t of a pointwise expression of the loaded blocks at
  (t, p, q):
  * first body: ½ · Σ_t kld, the Kullback–Leibler term of the four blocks' entries;
  * second body: Σ_t (-logp), the negated log-density, where the mask block is loaded in its stored layout
    (row, t, feature) and transposed on chip, so its entry at (t, p, q) is the loaded block's at (p, t, q).
  The bodies write `0 - y` for a negation; on the extended reals that is `-y`.
-/
import proofs.«100377_j18897856102820_2_alg».proof.Proof.Gen.KernelIdeal.Skeleton
import Idealize.ShloMosaic.PureOps.Ideal.Laws
import Idealize.ShloMosaic.Lib.ValueIdx
import Idealize.ShloMosaic.Lib.Pipeline.Value
import proofs.«100377_j18897856102820_2_alg».proof.Proof.LossSpec

noncomputable section

open scoped BigOperators

namespace Cert.KernelIdeal.Pay

open Cert.KernelIdeal Cert.KernelIdeal.Gen Idealize.ShloMosaic Idealize.ShloMosaic.ValueIdx Cert.Loss

/-- Row (p, q) of the reduced block comes from the entries (t, p, q) of the source. -/
theorem lift_t (p : Fin 64) (q : Fin 128) (t : Fin 64) :
    (reduces_S64x64x128_S64x128 : S64x64x128.Reduces [0] S64x128).lift (ix2 p q) t = ix3 t p q := by
  funext a
  match a with
  | ⟨0, _⟩ => rfl
  | ⟨1, _⟩ => rfl
  | ⟨2, _⟩ => rfl

/-- The first body's stored block at (p, q): one half of the sum over t of the Kullback–Leibler terms. -/
theorem kld_pay (x0 x1 x2 x3 : Vec Ideal S64x64x128 .f32) (p : Fin 64) (q : Fin 128) :
    k0_pay1 (F := Ideal) x0 x1 x2 x3 (ix2 p q)
      = half * ∑ t : Fin 64, kld (x0 (ix3 t p q)) (x1 (ix3 t p q)) (x2 (ix3 t p q)) (x3 (ix3 t p q)) := by
  unfold k0_pay1
  dsimp only
  refine congrArg (half * ·) ((Ideal.multiReduction_add_single _ _ reduces_S64x64x128_S64x128 _ _ (ix2 p q)).trans ?_)
  refine Finset.sum_congr rfl fun (t : Fin 64) _ => ?_
  rw [lift_t p q t]
  show ((x1 (ix3 t p q) - x3 (ix3 t p q)) + (Ideal.exp (x3 (ix3 t p q)) + (x2 (ix3 t p q) - x0 (ix3 t p q)) * (x2 (ix3 t p q) - x0 (ix3 t p q)))
      * Ideal.exp (Ideal.ofBits .f32 0x00000000#32 - x1 (ix3 t p q))) - Ideal.ofBits .f32 0x3F800000#32 = _
  rw [Ideal.ofBits_zero_f32, zero_sub]
  rfl

/-- The second body's stored block at (p, q): the sum over t of the negated log-densities, the mask read transposed. -/
theorem nll_pay (v0 v2 v3 v4 : Vec Ideal S64x64x128 .f32) (p : Fin 64) (q : Fin 128) :
    k1_pay1 (F := Ideal) v0 v2 v3 v4 (ix2 p q)
      = ∑ t : Fin 64, -(logp (v4 (ix3 t p q)) (v2 (ix3 t p q)) (v3 (ix3 t p q)) (v0 (ix3 p t q))) := by
  unfold k1_pay1
  dsimp only
  refine (Ideal.multiReduction_add_single _ _ reduces_S64x64x128_S64x128 _ _ (ix2 p q)).trans ?_
  refine Finset.sum_congr rfl fun (t : Fin 64) _ => ?_
  rw [lift_t p q t]
  have hm : transpose S64x64x128 [1, 0, 2] v0 transposes_S64x64x128_p1_0_2_S64x64x128 (ix3 t p q) = v0 (ix3 p t q) :=
    transpose_apply [1, 0, 2] v0 transposes_S64x64x128_p1_0_2_S64x64x128 (ix3 t p q) (ix3 p t q) (fun b => match b with
      | ⟨0, _⟩ => rfl
      | ⟨1, _⟩ => rfl
      | ⟨2, _⟩ => rfl)
  show Ideal.ofBits .f32 0x00000000#32 - ((Ideal.ofBits .f32 0xBF6B3F8E#32 - (Ideal.ofBits .f32 0x3F000000#32 * (v3 (ix3 t p q) * (transpose S64x64x128 [1, 0, 2] v0 transposes_S64x64x128_p1_0_2_S64x64x128 (ix3 t p q))))) - (Ideal.ofBits .f32 0x3F000000#32 * ((v4 (ix3 t p q) * (transpose S64x64x128 [1, 0, 2] v0 transposes_S64x64x128_p1_0_2_S64x64x128 (ix3 t p q)) - v2 (ix3 t p q) * (transpose S64x64x128 [1, 0, 2] v0 transposes_S64x64x128_p1_0_2_S64x64x128 (ix3 t p q))) * Ideal.exp (Ideal.ofBits .f32 0x00000000#32 - (Ideal.ofBits .f32 0x3F000000#32 * (v3 (ix3 t p q) * (transpose S64x64x128 [1, 0, 2] v0 transposes_S64x64x128_p1_0_2_S64x64x128 (ix3 t p q))))))) * ((v4 (ix3 t p q) * (transpose S64x64x128 [1, 0, 2] v0 transposes_S64x64x128_p1_0_2_S64x64x128 (ix3 t p q)) - v2 (ix3 t p q) * (transpose S64x64x128 [1, 0, 2] v0 transposes_S64x64x128_p1_0_2_S64x64x128 (ix3 t p q))) * Ideal.exp (Ideal.ofBits .f32 0x00000000#32 - (Ideal.ofBits .f32 0x3F000000#32 * (v3 (ix3 t p q) * (transpose S64x64x128 [1, 0, 2] v0 transposes_S64x64x128_p1_0_2_S64x64x128 (ix3 t p q))))))) = _
  rw [hm, Ideal.ofBits_zero_f32, zero_sub, zero_sub]
  rfl

end Cert.KernelIdeal.Pay

end
-- ==== Proof.KldBlocks.lean ====
/-
  The first region's output array, read off its frame.

  The region runs the Kullback–Leibler body at 64 grid points.  Point `t` loads, from each of the prior's mean, the
  prior's log-variance, the encoder's mean and the encoder's log-variance, the block of all 64 time steps, batch rows
  `64·t … 64·t + 63` and all 128 features, and stores rows `64·t … 64·t + 63` of a (4096, 128) array.  Each stored
  block is the matching block of ONE function of the four arrays — ½ · Σ_t kld at (row, feature) — and the 64 blocks
  tile the array, so after the region the array is that function.
-/
import proofs.«100377_j18897856102820_2_alg».proof.Proof.Gen.KernelIdeal.Frame
import proofs.«100377_j18897856102820_2_alg».proof.Proof.Payloads
import Idealize.ShloMosaic.Lib.Pipeline.Value

noncomputable section

open scoped BigOperators

namespace Cert.KernelIdeal.KldBlocks

open Cert.KernelIdeal Cert.KernelIdeal.Gen Idealize.ShloMosaic Idealize.ShloMosaic.TcCoe Idealize.SL.Sem
open Idealize.ShloMosaic.ValueIdx Cert.Loss
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: point `t` takes block `t` along the batch axis of every
    window and block 0 along the others. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- Window 0's block at grid point `t` is the 64 consecutive slices `64·t … 64·t + 63` along axis 1 of its array. -/
theorem iblk_0 (c : Dev nD) (t : Fin cfg0.N) (z : S64x64x128.Idx) (i : S64x4096x128.Idx) (h0 : (i 0).val = (z 0).val) (h1 : (i 1).val = t.val * 64 + (z 1).val) (h2 : (i 2).val = (z 2).val) :
    (iblk0 V c 0 t : Vec Ideal S64x64x128 .f32) z = (V c main_arg0 : S64x4096x128.Idx → EReal) i := by
  obtain ⟨e0, e1, e2⟩ := (idx_facts t).1
  unfold iblk0
  rw [View.read_apply]
  show V c main_arg0 _ = V c main_arg0 _
  congr 1
  funext a
  apply Fin.ext
  match a with
  | ⟨0, _⟩ => show win0_0.index t (0 : Fin 3) * 64 + 1 * (z 0).val = (i 0).val; rw [e0, h0]; omega
  | ⟨1, _⟩ => show win0_0.index t (1 : Fin 3) * 64 + 1 * (z 1).val = (i 1).val; rw [e1, h1]; omega
  | ⟨2, _⟩ => show win0_0.index t (2 : Fin 3) * 128 + 1 * (z 2).val = (i 2).val; rw [e2, h2]; omega

/-- Window 1's block at grid point `t` is the 64 consecutive slices `64·t … 64·t + 63` along axis 1 of its array. -/
theorem iblk_1 (c : Dev nD) (t : Fin cfg0.N) (z : S64x64x128.Idx) (i : S64x4096x128.Idx) (h0 : (i 0).val = (z 0).val) (h1 : (i 1).val = t.val * 64 + (z 1).val) (h2 : (i 2).val = (z 2).val) :
    (iblk0 V c 1 t : Vec Ideal S64x64x128 .f32) z = (V c main_arg1 : S64x4096x128.Idx → EReal) i := by
  obtain ⟨e0, e1, e2⟩ := (idx_facts t).2.1
  unfold iblk0
  rw [View.read_apply]
  show V c main_arg1 _ = V c main_arg1 _
  congr 1
  funext a
  apply Fin.ext
  match a with
  | ⟨0, _⟩ => show win0_1.index t (0 : Fin 3) * 64 + 1 * (z 0).val = (i 0).val; rw [e0, h0]; omega
  | ⟨1, _⟩ => show win0_1.index t (1 : Fin 3) * 64 + 1 * (z 1).val = (i 1).val; rw [e1, h1]; omega
  | ⟨2, _⟩ => show win0_1.index t (2 : Fin 3) * 128 + 1 * (z 2).val = (i 2).val; rw [e2, h2]; omega

/-- Window 2's block at grid point `t` is the 64 consecutive slices `64·t … 64·t + 63` along axis 1 of its array. -/
theorem iblk_2 (c : Dev nD) (t : Fin cfg0.N) (z : S64x64x128.Idx) (i : S64x4096x128.Idx) (h0 : (i 0).val = (z 0).val) (h1 : (i 1).val = t.val * 64 + (z 1).val) (h2 : (i 2).val = (z 2).val) :
    (iblk0 V c 2 t : Vec Ideal S64x64x128 .f32) z = (V c main_arg3 : S64x4096x128.Idx → EReal) i := by
  obtain ⟨e0, e1, e2⟩ := (idx_facts t).2.2.1
  unfold iblk0
  rw [View.read_apply]
  show V c main_arg3 _ = V c main_arg3 _
  congr 1
  funext a
  apply Fin.ext
  match a with
  | ⟨0, _⟩ => show win0_2.index t (0 : Fin 3) * 64 + 1 * (z 0).val = (i 0).val; rw [e0, h0]; omega
  | ⟨1, _⟩ => show win0_2.index t (1 : Fin 3) * 64 + 1 * (z 1).val = (i 1).val; rw [e1, h1]; omega
  | ⟨2, _⟩ => show win0_2.index t (2 : Fin 3) * 128 + 1 * (z 2).val = (i 2).val; rw [e2, h2]; omega

/-- Window 3's block at grid point `t` is the 64 consecutive slices `64·t … 64·t + 63` along axis 1 of its array. -/
theorem iblk_3 (c : Dev nD) (t : Fin cfg0.N) (z : S64x64x128.Idx) (i : S64x4096x128.Idx) (h0 : (i 0).val = (z 0).val) (h1 : (i 1).val = t.val * 64 + (z 1).val) (h2 : (i 2).val = (z 2).val) :
    (iblk0 V c 3 t : Vec Ideal S64x64x128 .f32) z = (V c main_arg4 : S64x4096x128.Idx → EReal) i := by
  obtain ⟨e0, e1, e2⟩ := (idx_facts t).2.2.2.1
  unfold iblk0
  rw [View.read_apply]
  show V c main_arg4 _ = V c main_arg4 _
  congr 1
  funext a
  apply Fin.ext
  match a with
  | ⟨0, _⟩ => show win0_3.index t (0 : Fin 3) * 64 + 1 * (z 0).val = (i 0).val; rw [e0, h0]; omega
  | ⟨1, _⟩ => show win0_3.index t (1 : Fin 3) * 64 + 1 * (z 1).val = (i 1).val; rw [e1, h1]; omega
  | ⟨2, _⟩ => show win0_3.index t (2 : Fin 3) * 128 + 1 * (z 2).val = (i 2).val; rw [e2, h2]; omega

/-- One entry of the block a grid point stores, over plain variables: if the four loaded blocks are the slices
    `64·T … 64·T + 63` of the four arrays along the batch axis, entry `y` of the stored block is entry
    `(64·T + y₀, y₁)` of the partial array ½ · Σ_t kld. -/
theorem entry_eq (a0 a1 a3 a4 : S64x4096x128.Idx → EReal) (x0 x1 x2 x3 : Vec Ideal S64x64x128 .f32) (T : Nat)
    (y : S64x128.Idx) (i : S4096x128.Idx) (hi0 : (i 0).val = T * 64 + (y 0).val) (hi1 : (i 1).val = (y 1).val)
    (r0 : ∀ (z : S64x64x128.Idx) (k : S64x4096x128.Idx), (k 0).val = (z 0).val → (k 1).val = T * 64 + (z 1).val → (k 2).val = (z 2).val → x0 z = a0 k)
    (r1 : ∀ (z : S64x64x128.Idx) (k : S64x4096x128.Idx), (k 0).val = (z 0).val → (k 1).val = T * 64 + (z 1).val → (k 2).val = (z 2).val → x1 z = a1 k)
    (r2 : ∀ (z : S64x64x128.Idx) (k : S64x4096x128.Idx), (k 0).val = (z 0).val → (k 1).val = T * 64 + (z 1).val → (k 2).val = (z 2).val → x2 z = a3 k)
    (r3 : ∀ (z : S64x64x128.Idx) (k : S64x4096x128.Idx), (k 0).val = (z 0).val → (k 1).val = T * 64 + (z 1).val → (k 2).val = (z 2).val → x3 z = a4 k) :
    k0_pay1 (F := Ideal) x0 x1 x2 x3 y = kldOut a0 a1 a3 a4 i := by
  obtain ⟨p, q, rfl⟩ : ∃ (p : Fin 64) (q : Fin 128), y = ix2 p q := ⟨y 0, y 1, eq_ix2 y⟩
  obtain ⟨b, d, rfl⟩ : ∃ (b : Fin 4096) (d : Fin 128), i = ix2 b d := ⟨i 0, i 1, eq_ix2 i⟩
  refine (Cert.KernelIdeal.Pay.kld_pay x0 x1 x2 x3 p q).trans ?_
  unfold kldOut kldAt
  refine congrArg (half * ·) (Finset.sum_congr rfl fun s _ => ?_)
  rw [r0 (ix3 s p q) (ix3 s b d) rfl hi0 hi1, r1 (ix3 s p q) (ix3 s b d) rfl hi0 hi1,
    r2 (ix3 s p q) (ix3 s b d) rfl hi0 hi1, r3 (ix3 s p q) (ix3 s b d) rfl hi0 hi1]

/-- What grid point `t` writes back is block `t` of the partial array. -/
theorem flushed_eq (c : Dev nD) (t : Fin cfg0.N) :
    (dat0 V c).flushed 4 t = ((cfg0.win 4).blk t).view.read (Elt Ideal) (kldOut (V c main_arg0) (V c main_arg1) (V c main_arg3) (V c main_arg4)) := by
  show (cfg0.win 4).cut (grid0.coords t) ((dat0 V c).after 4 t) = _
  rw [after0_4]
  unfold out0_4
  rw [View.canon_unit_zero hz2]
  simp only [View.ld_unit_zero (S := S64x64x128) hz3]
  obtain ⟨o0, o1⟩ := (idx_facts t).2.2.2.2
  funext j
  show k0_pay1 (F := Ideal) (iblk0 V c 0 t) (iblk0 V c 1 t) (iblk0 V c 2 t) (iblk0 V c 3 t) j = kldOut (V c main_arg0) (V c main_arg1) (V c main_arg3) (V c main_arg4) (((cfg0.win 4).blk t).view.emb j)
  refine entry_eq (V c main_arg0) (V c main_arg1) (V c main_arg3) (V c main_arg4) (iblk0 V c 0 t) (iblk0 V c 1 t) (iblk0 V c 2 t) (iblk0 V c 3 t) t.val j _ ?_ ?_
    (fun z i h0 h1 h2 => iblk_0 V c t z i h0 h1 h2) (fun z i h0 h1 h2 => iblk_1 V c t z i h0 h1 h2)
    (fun z i h0 h1 h2 => iblk_2 V c t z i h0 h1 h2) (fun z i h0 h1 h2 => iblk_3 V c t z i h0 h1 h2)
  · show win0_4.index t (0 : Fin 2) * 64 + 1 * (j 0).val = t.val * 64 + (j 0).val; rw [o0]; omega
  · show win0_4.index t (1 : Fin 2) * 128 + 1 * (j 1).val = (j 1).val; rw [o1]; omega

/-- Every entry of the (4096, 128) array lies in the block of the grid point `row / 64`, so the 64 write-backs leave
    the whole partial array. -/
theorem final (c : Dev nD) : (dat0 V c).arrAt 4 cfg0.N = kldOut (V c main_arg0) (V c main_arg1) (V c main_arg3) (V c main_arg4) :=
  (dat0 V c).arrAt_eq_of_cover 4 _ (fun t _ => flushed_eq V c t) fun i => by
    have hi0 : (i 0 : Nat) < 4096 := (i 0).isLt
    have hi1 : (i 1 : Nat) < 128 := (i 1).isLt
    have hlt : (i 0 : Nat) / 64 < cfg0.N := Nat.lt_of_lt_of_eq (by omega : (i 0 : Nat) / 64 < 64) N_0.symm
    obtain ⟨o0, o1⟩ := (idx_facts ⟨(i 0 : Nat) / 64, hlt⟩).2.2.2.2
    refine ⟨⟨(i 0 : Nat) / 64, hlt⟩, flush0_4 _, ?_⟩
    show i ∈ ((View.whole main_v0).slice (win0_4.rect ⟨(i 0 : Nat) / 64, hlt⟩)).set
    rw [View.set_slice_whole, Rect.mem_set_unit]
    intro a
    match a with
    | ⟨0, _⟩ =>
      show win0_4.index ⟨(i 0 : Nat) / 64, hlt⟩ (0 : Fin 2) * 64 ≤ (i 0 : Nat) ∧ (i 0 : Nat) < win0_4.index ⟨(i 0 : Nat) / 64, hlt⟩ (0 : Fin 2) * 64 + 64
      rw [o0]
      show (i 0 : Nat) / 64 * 64 ≤ (i 0 : Nat) ∧ (i 0 : Nat) < (i 0 : Nat) / 64 * 64 + 64
      omega
    | ⟨1, _⟩ =>
      show win0_4.index ⟨(i 0 : Nat) / 64, hlt⟩ (1 : Fin 2) * 128 ≤ (i 1 : Nat) ∧ (i 1 : Nat) < win0_4.index ⟨(i 0 : Nat) / 64, hlt⟩ (1 : Fin 2) * 128 + 128
      rw [o1]
      omega

end Cert.KernelIdeal.KldBlocks

end
-- ==== Proof.NllBlocks.lean ====
/-
  The second region's output array, read off its frame.

  The region runs the log-density body at 64 grid points.  Point `t` loads, from the observation, the decoder's mean and
  the decoder's log-variance, the block of all 64 time steps, batch rows `64·t … 64·t + 63` and all 128 features; from the
  mask, stored (batch row, time step, feature), the block of the same batch rows, all time steps and all features; and
  stores rows `64·t … 64·t + 63` of a (4096, 128) array.  Each stored block is the matching block of ONE function of
  the four arrays — Σ_t (-logp) at (row, feature) — and the 64 blocks tile the array, so after the region the array is that
  function.
-/
import proofs.«100377_j18897856102820_2_alg».proof.Proof.Gen.KernelIdeal.Frame
import proofs.«100377_j18897856102820_2_alg».proof.Proof.Payloads
import Idealize.ShloMosaic.Lib.Pipeline.Value

noncomputable section

open scoped BigOperators

namespace Cert.KernelIdeal.NllBlocks

open Cert.KernelIdeal Cert.KernelIdeal.Gen Idealize.ShloMosaic Idealize.ShloMosaic.TcCoe Idealize.SL.Sem
open Idealize.ShloMosaic.ValueIdx Cert.Loss
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: point `t` takes block `t` along the batch axis of every
    window and block 0 along the others. -/
theorem idx_facts : ∀ t : Fin cfg1.N,
    (win1_0.index t (0 : Fin 3) = 0 ∧ win1_0.index t (1 : Fin 3) = t.val ∧ win1_0.index t (2 : Fin 3) = 0)
    ∧ (win1_1.index t (0 : Fin 3) = 0 ∧ win1_1.index t (1 : Fin 3) = t.val ∧ win1_1.index t (2 : Fin 3) = 0)
    ∧ (win1_2.index t (0 : Fin 3) = 0 ∧ win1_2.index t (1 : Fin 3) = t.val ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 2) = t.val ∧ win1_4.index t (1 : Fin 2) = 0) :=
  (by decide +kernel : ∀ t : Fin grid1.N, _)

/-- Window 0's block at grid point `t` is the 64 consecutive slices `64·t … 64·t + 63` along axis 1 of its array. -/
theorem iblk_0 (c : Dev nD) (t : Fin cfg1.N) (z : S64x64x128.Idx) (i : S64x4096x128.Idx) (h0 : (i 0).val = (z 0).val) (h1 : (i 1).val = t.val * 64 + (z 1).val) (h2 : (i 2).val = (z 2).val) :
    (iblk1 V c 0 t : Vec Ideal S64x64x128 .f32) z = (V c main_arg2 : S64x4096x128.Idx → EReal) i := by
  obtain ⟨e0, e1, e2⟩ := (idx_facts t).1
  unfold iblk1
  rw [View.read_apply]
  show V c main_arg2 _ = V c main_arg2 _
  congr 1
  funext a
  apply Fin.ext
  match a with
  | ⟨0, _⟩ => show win1_0.index t (0 : Fin 3) * 64 + 1 * (z 0).val = (i 0).val; rw [e0, h0]; omega
  | ⟨1, _⟩ => show win1_0.index t (1 : Fin 3) * 64 + 1 * (z 1).val = (i 1).val; rw [e1, h1]; omega
  | ⟨2, _⟩ => show win1_0.index t (2 : Fin 3) * 128 + 1 * (z 2).val = (i 2).val; rw [e2, h2]; omega

/-- Window 1's block at grid point `t` is the 64 consecutive slices `64·t … 64·t + 63` along axis 1 of its array. -/
theorem iblk_1 (c : Dev nD) (t : Fin cfg1.N) (z : S64x64x128.Idx) (i : S64x4096x128.Idx) (h0 : (i 0).val = (z 0).val) (h1 : (i 1).val = t.val * 64 + (z 1).val) (h2 : (i 2).val = (z 2).val) :
    (iblk1 V c 1 t : Vec Ideal S64x64x128 .f32) z = (V c main_arg5 : S64x4096x128.Idx → EReal) i := by
  obtain ⟨e0, e1, e2⟩ := (idx_facts t).2.1
  unfold iblk1
  rw [View.read_apply]
  show V c main_arg5 _ = V c main_arg5 _
  congr 1
  funext a
  apply Fin.ext
  match a with
  | ⟨0, _⟩ => show win1_1.index t (0 : Fin 3) * 64 + 1 * (z 0).val = (i 0).val; rw [e0, h0]; omega
  | ⟨1, _⟩ => show win1_1.index t (1 : Fin 3) * 64 + 1 * (z 1).val = (i 1).val; rw [e1, h1]; omega
  | ⟨2, _⟩ => show win1_1.index t (2 : Fin 3) * 128 + 1 * (z 2).val = (i 2).val; rw [e2, h2]; omega

/-- Window 2's block at grid point `t` is the 64 consecutive slices `64·t … 64·t + 63` along axis 1 of its array. -/
theorem iblk_2 (c : Dev nD) (t : Fin cfg1.N) (z : S64x64x128.Idx) (i : S64x4096x128.Idx) (h0 : (i 0).val = (z 0).val) (h1 : (i 1).val = t.val * 64 + (z 1).val) (h2 : (i 2).val = (z 2).val) :
    (iblk1 V c 2 t : Vec Ideal S64x64x128 .f32) z = (V c main_arg6 : S64x4096x128.Idx → EReal) i := by
  obtain ⟨e0, e1, e2⟩ := (idx_facts t).2.2.1
  unfold iblk1
  rw [View.read_apply]
  show V c main_arg6 _ = V c main_arg6 _
  congr 1
  funext a
  apply Fin.ext
  match a with
  | ⟨0, _⟩ => show win1_2.index t (0 : Fin 3) * 64 + 1 * (z 0).val = (i 0).val; rw [e0, h0]; omega
  | ⟨1, _⟩ => show win1_2.index t (1 : Fin 3) * 64 + 1 * (z 1).val = (i 1).val; rw [e1, h1]; omega
  | ⟨2, _⟩ => show win1_2.index t (2 : Fin 3) * 128 + 1 * (z 2).val = (i 2).val; rw [e2, h2]; omega

/-- Window 3's block at grid point `t` is the 64 consecutive slices `64·t … 64·t + 63` along axis 0 of its array. -/
theorem iblk_3 (c : Dev nD) (t : Fin cfg1.N) (z : S64x64x128.Idx) (i : S4096x64x128.Idx) (h0 : (i 0).val = t.val * 64 + (z 0).val) (h1 : (i 1).val = (z 1).val) (h2 : (i 2).val = (z 2).val) :
    (iblk1 V c 3 t : Vec Ideal S64x64x128 .f32) z = (V c main_arg7 : S4096x64x128.Idx → EReal) i := by
  obtain ⟨e0, e1, e2⟩ := (idx_facts t).2.2.2.1
  unfold iblk1
  rw [View.read_apply]
  show V c main_arg7 _ = V c main_arg7 _
  congr 1
  funext a
  apply Fin.ext
  match a with
  | ⟨0, _⟩ => show win1_3.index t (0 : Fin 3) * 64 + 1 * (z 0).val = (i 0).val; rw [e0, h0]; omega
  | ⟨1, _⟩ => show win1_3.index t (1 : Fin 3) * 64 + 1 * (z 1).val = (i 1).val; rw [e1, h1]; omega
  | ⟨2, _⟩ => show win1_3.index t (2 : Fin 3) * 128 + 1 * (z 2).val = (i 2).val; rw [e2, h2]; omega

/-- One entry of the block a grid point stores, over plain variables: if the observation's, the decoder mean's and the
    decoder log-variance's blocks are the slices `64·T … 64·T + 63` of their arrays along the batch axis (axis 1) and the
    mask's block the same slice of the mask along ITS batch axis (axis 0), entry `y` of the stored block is entry
    `(64·T + y₀, y₁)` of the partial array Σ_t (-logp). -/
theorem entry_eq (a2 a5 a6 : S64x4096x128.Idx → EReal) (a7 : S4096x64x128.Idx → EReal) (v0 v2 v3 v4 : Vec Ideal S64x64x128 .f32) (T : Nat)
    (y : S64x128.Idx) (i : S4096x128.Idx) (hi0 : (i 0).val = T * 64 + (y 0).val) (hi1 : (i 1).val = (y 1).val)
    (r0 : ∀ (z : S64x64x128.Idx) (k : S64x4096x128.Idx), (k 0).val = (z 0).val → (k 1).val = T * 64 + (z 1).val → (k 2).val = (z 2).val → v4 z = a2 k)
    (r1 : ∀ (z : S64x64x128.Idx) (k : S64x4096x128.Idx), (k 0).val = (z 0).val → (k 1).val = T * 64 + (z 1).val → (k 2).val = (z 2).val → v2 z = a5 k)
    (r2 : ∀ (z : S64x64x128.Idx) (k : S64x4096x128.Idx), (k 0).val = (z 0).val → (k 1).val = T * 64 + (z 1).val → (k 2).val = (z 2).val → v3 z = a6 k)
    (r3 : ∀ (z : S64x64x128.Idx) (k : S4096x64x128.Idx), (k 0).val = T * 64 + (z 0).val → (k 1).val = (z 1).val → (k 2).val = (z 2).val → v0 z = a7 k) :
    k1_pay1 (F := Ideal) v0 v2 v3 v4 y = nllOut a2 a5 a6 a7 i := by
  obtain ⟨p, q, rfl⟩ : ∃ (p : Fin 64) (q : Fin 128), y = ix2 p q := ⟨y 0, y 1, eq_ix2 y⟩
  obtain ⟨b, d, rfl⟩ : ∃ (b : Fin 4096) (d : Fin 128), i = ix2 b d := ⟨i 0, i 1, eq_ix2 i⟩
  refine (Cert.KernelIdeal.Pay.nll_pay v0 v2 v3 v4 p q).trans ?_
  unfold nllOut logpAt
  refine Finset.sum_congr rfl fun s _ => ?_
  rw [r0 (ix3 s p q) (ix3 s b d) rfl hi0 hi1, r1 (ix3 s p q) (ix3 s b d) rfl hi0 hi1,
    r2 (ix3 s p q) (ix3 s b d) rfl hi0 hi1, r3 (ix3 p s q) (ix3 b s d) hi0 rfl hi1]

/-- What grid point `t` writes back is block `t` of the partial array. -/
theorem flushed_eq (c : Dev nD) (t : Fin cfg1.N) :
    (dat1 V c).flushed 4 t = ((cfg1.win 4).blk t).view.read (Elt Ideal) (nllOut (V c main_arg2) (V c main_arg5) (V c main_arg6) (V c main_arg7)) := by
  show (cfg1.win 4).cut (grid1.coords t) ((dat1 V c).after 4 t) = _
  rw [after1_4]
  unfold out1_4
  rw [View.canon_unit_zero hz2]
  simp only [View.ld_unit_zero (S := S64x64x128) hz3]
  obtain ⟨o0, o1⟩ := (idx_facts t).2.2.2.2
  funext j
  show k1_pay1 (F := Ideal) (iblk1 V c 3 t) (iblk1 V c 1 t) (iblk1 V c 2 t) (iblk1 V c 0 t) j = nllOut (V c main_arg2) (V c main_arg5) (V c main_arg6) (V c main_arg7) (((cfg1.win 4).blk t).view.emb j)
  refine entry_eq (V c main_arg2) (V c main_arg5) (V c main_arg6) (V c main_arg7) (iblk1 V c 3 t) (iblk1 V c 1 t) (iblk1 V c 2 t) (iblk1 V c 0 t) t.val j _ ?_ ?_
    (fun z i h0 h1 h2 => iblk_0 V c t z i h0 h1 h2) (fun z i h0 h1 h2 => iblk_1 V c t z i h0 h1 h2)
    (fun z i h0 h1 h2 => iblk_2 V c t z i h0 h1 h2) (fun z i h0 h1 h2 => iblk_3 V c t z i h0 h1 h2)
  · show win1_4.index t (0 : Fin 2) * 64 + 1 * (j 0).val = t.val * 64 + (j 0).val; rw [o0]; omega
  · show win1_4.index t (1 : Fin 2) * 128 + 1 * (j 1).val = (j 1).val; rw [o1]; omega

/-- Every entry of the (4096, 128) array lies in the block of the grid point `row / 64`, so the 64 write-backs leave
    the whole partial array. -/
theorem final (c : Dev nD) : (dat1 V c).arrAt 4 cfg1.N = nllOut (V c main_arg2) (V c main_arg5) (V c main_arg6) (V c main_arg7) :=
  (dat1 V c).arrAt_eq_of_cover 4 _ (fun t _ => flushed_eq V c t) fun i => by
    have hi0 : (i 0 : Nat) < 4096 := (i 0).isLt
    have hi1 : (i 1 : Nat) < 128 := (i 1).isLt
    have hlt : (i 0 : Nat) / 64 < cfg1.N := Nat.lt_of_lt_of_eq (by omega : (i 0 : Nat) / 64 < 64) N_1.symm
    obtain ⟨o0, o1⟩ := (idx_facts ⟨(i 0 : Nat) / 64, hlt⟩).2.2.2.2
    refine ⟨⟨(i 0 : Nat) / 64, hlt⟩, flush1_4 _, ?_⟩
    show i ∈ ((View.whole main_v1).slice (win1_4.rect ⟨(i 0 : Nat) / 64, hlt⟩)).set
    rw [View.set_slice_whole, Rect.mem_set_unit]
    intro a
    match a with
    | ⟨0, _⟩ =>
      show win1_4.index ⟨(i 0 : Nat) / 64, hlt⟩ (0 : Fin 2) * 64 ≤ (i 0 : Nat) ∧ (i 0 : Nat) < win1_4.index ⟨(i 0 : Nat) / 64, hlt⟩ (0 : Fin 2) * 64 + 64
      rw [o0]
      show (i 0 : Nat) / 64 * 64 ≤ (i 0 : Nat) ∧ (i 0 : Nat) < (i 0 : Nat) / 64 * 64 + 64
      omega
    | ⟨1, _⟩ =>
      show win1_4.index ⟨(i 0 : Nat) / 64, hlt⟩ (1 : Fin 2) * 128 ≤ (i 1 : Nat) ∧ (i 1 : Nat) < win1_4.index ⟨(i 0 : Nat) / 64, hlt⟩ (1 : Fin 2) * 128 + 128
      rw [o1]
      omega

end Cert.KernelIdeal.NllBlocks

end
-- ==== Proof.KernelRun.lean ====
/-
  The kernel program's run, with its result named.

  The program is two kernel regions followed by a stretch of host operations: the row sums over features of the first
  partial array, their sum, the sum of the second partial array, two divisions by 4096 and the final addition.  The
  buffer contents at the segment boundaries are a fold from the launch memory: each region leaves its output array at
  what its 64 write-backs add up to and every other buffer as it found it, and the host stretch applies its operations
  to that.  The run below ends with the result buffer at the last boundary's contents and the arguments unchanged; the
  host stretch is then opened into `tail`, one function of the two partial arrays.
-/
import proofs.«100377_j18897856102820_2_alg».proof.Proof.Gen.KernelIdeal.Frame
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, without a fault, with the result buffer at the last
    boundary's contents and the argument arrays unchanged. -/
theorem run_result : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

/-- The host operations after the two regions, as one function of the two partial arrays: the row sums of the first,
    their sum divided by 4096, plus the sum of the second divided by 4096. -/
def tail (o0 o1 : (⟨S4096x128, .f32⟩ : BufTy).Contents (Elt F)) : (⟨S_, .f32⟩ : BufTy).Contents (Elt F) :=
  addf
    (Host.divf (Host.reduceAdd (Host.reduceAdd o0 (constant (F := F) S_ .f32 0x00000000#32) reducesTo_S4096x128_S4096_d1 h_S_)
      (constant (F := F) S_ .f32 0x00000000#32) reducesTo_S4096_S_d0 h_S_) (constant (F := F) S_ .f32 0x45800000#32))
    (Host.divf (Host.reduceAdd o1 (constant (F := F) S_ .f32 0x00000000#32) reducesTo_S4096x128_S_d0_1 h_S_)
      (constant (F := F) S_ .f32 0x45800000#32))

/-- The result buffer after the host stretch is `tail` of the two regions' output arrays. -/
theorem result_eq_tail (c : Dev nD) :
    W3 m ρ c (Proc.devRef .tc main_v7)
      = tail (F := F) ((dat0 (V0 m ρ) c).arrAt 4 cfg0.N) ((dat1 (V1 m ρ) c).arrAt 4 cfg1.N) := by
  have e0 : W2 m ρ c (Proc.devRef .tc main_v0) = (dat0 (V0 m ρ) c).arrAt 4 cfg0.N :=
    (W2_of_ne m ρ c main_v0 (by decide)).trans (W1_arr m ρ c 4)
  have e1 : W2 m ρ c (Proc.devRef .tc main_v1) = (dat1 (V1 m ρ) c).arrAt 4 cfg1.N := W2_arr m ρ c 4
  rw [← e0, ← e1]
  show StableHlo.after hostOps2 (W2 m ρ c) (Proc.devRef .tc main_v7) = _
  after_results
  rfl

/-- The second region finds the arrays it reads as they were launched: the first region writes none of them. -/
theorem V1_main_arg2 (c : Dev nD) : V1 m ρ c main_arg2 = m ((c : Thread nD τ).loc main_arg2) := W1_of_ne m ρ c main_arg2 (by decide)
theorem V1_main_arg5 (c : Dev nD) : V1 m ρ c main_arg5 = m ((c : Thread nD τ).loc main_arg5) := W1_of_ne m ρ c main_arg5 (by decide)
theorem V1_main_arg6 (c : Dev nD) : V1 m ρ c main_arg6 = m ((c : Thread nD τ).loc main_arg6) := W1_of_ne m ρ c main_arg6 (by decide)
theorem V1_main_arg7 (c : Dev nD) : V1 m ρ c main_arg7 = m ((c : Thread nD τ).loc main_arg7) := W1_of_ne m ρ c main_arg7 (by decide)

end Cert.KernelIdeal.KValue

end
-- ==== Proof.LibERealCoe.lean ====
/-
  Real numbers inside the extended reals: the coercion `ℝ → EReal` commutes with finite sums and with
  the maximum of a finite family, and on a real argument inside their domains the reciprocal square
  root, the power `-1/2`, the exponential and the logarithm of the ideal instance are the coerced real
  functions.  With these a computation on finite inputs is carried out in `ℝ` once and for all.
-/
import Idealize.ShloMosaic.PureOps.Ideal

noncomputable section

namespace Cert.Lib

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a finite nonempty family of coerced reals is the coerced maximum. -/
theorem coe_sup' {ι : Type*} (s : Finset ι) (h : s.Nonempty) (f : ι → ℝ) :
    ((s.sup' h f : ℝ) : EReal) = s.sup' h (fun i => ((f i : ℝ) : EReal)) :=
  Finset.comp_sup'_eq_sup'_comp h (fun x : ℝ => (x : EReal)) (fun a b => EReal.coe_strictMono.monotone.map_max)

/-- The larger of two coerced reals is the coerced larger one. -/
theorem coe_max (a b : ℝ) : max ((a : ℝ) : EReal) ((b : ℝ) : EReal) = ((max a b : ℝ) : EReal) :=
  (EReal.coe_strictMono.monotone.map_max).symm

/-- `1/√d` at a positive real. -/
theorem rsqrt_coe_pos {d : ℝ} (h : 0 < d) : Ideal.rsqrt (d : EReal) = (((Real.sqrt d)⁻¹ : ℝ) : EReal) := by
  rw [Ideal.rsqrt_coe, if_neg (not_lt.mpr h.le), if_neg h.ne']

/-- `d ^ (-1/2)` at a positive real is `1/√d`. -/
theorem pow_neg_half_coe_pos {d : ℝ} (h : 0 < d) :
    Ideal.pow (d : EReal) (((-(1 / 2) : ℝ)) : EReal) = (((Real.sqrt d)⁻¹ : ℝ) : EReal) := by
  rw [Ideal.pow_coe_coe]
  congr 1
  show d ^ (-(1 / 2) : ℝ) = _
  rw [Real.rpow_neg h.le, Real.sqrt_eq_rpow]

/-- The exponential of a real. -/
theorem exp_coe' (r : ℝ) : Ideal.exp (r : EReal) = ((Real.exp r : ℝ) : EReal) := rfl

/-- The logarithm at a positive real. -/
theorem log_coe_pos {r : ℝ} (h : 0 < r) : Ideal.log (r : EReal) = ((Real.log r : ℝ) : EReal) := by
  rw [Ideal.log_coe, if_neg (not_le.mpr h)]

/-- A coerced real is not an infinity: its absolute value is below `⊤`. -/
theorem abs_coe_lt_top (r : ℝ) : ((|r| : ℝ) : EReal) < ⊤ := EReal.coe_lt_top _

end Cert.Lib

end
-- ==== Proof.LibNonnegDistrib.lean ====
/-
  Multiplication by a NON-NEGATIVE REAL distributes over addition and over finite sums on the extended reals.

  On `EReal` the product does not distribute over the sum in general (`⊤ + ⊥ = ⊥`, and a negative factor turns the
  summands around), but a factor `x` that is a coerced real with `0 ≤ x` does: it is neither `⊤` nor `⊥`, it keeps
  the sign of every summand, and `0 * _ = 0`. Nothing is assumed of the summands: they may be `⊤` or `⊥`.
-/
import Mathlib.Data.EReal.Operations
import Mathlib.Algebra.BigOperators.Group.Finset.Basic

namespace Cert.Lib

/-- `x * (a + b) = x * a + x * b` for a real `x ≥ 0` and any extended reals `a`, `b`. -/
theorem coe_nonneg_mul_add {x : ℝ} (hx : 0 ≤ x) (a b : EReal) :
    (x : EReal) * (a + b) = (x : EReal) * a + (x : EReal) * b :=
  EReal.left_distrib_of_nonneg_of_ne_top (EReal.coe_nonneg.mpr hx) (EReal.coe_ne_top x) a b

/-- `x * ∑ f = ∑ x * f` over a finite set, for a real `x ≥ 0` and any extended reals `f j`. -/
theorem coe_nonneg_mul_sum {ι : Type*} {x : ℝ} (hx : 0 ≤ x) (s : Finset ι) (f : ι → EReal) :
    (x : EReal) * ∑ j ∈ s, f j = ∑ j ∈ s, (x : EReal) * f j := by
  classical
  induction s using Finset.induction_on with
  | empty => simp
  | insert a s ha ih => rw [Finset.sum_insert ha, Finset.sum_insert ha, coe_nonneg_mul_add hx, ih]

end Cert.Lib
-- ==== Proof.LossAlgebra.lean ====
/-
  The two rearrangements that take the kernel's partial sums to the loss.

  * The Kullback–Leibler half.  The kernel halves each (b, d) partial sum over t and then adds over d; the loss halves the
    sum over (t, d).  One half is a non-negative real, so it distributes over any sum of extended reals, infinite
    summands included, and the two finite summations commute.
  * The log-density half.  The kernel adds the NEGATED log-densities, the loss negates their sum.  On the extended reals
    negation does not distribute over a sum in general (-(⊤ + ⊥) = ⊤ while -⊤ + -⊥ = ⊥), so this one is proved where
    every summand is a real number: there both sides are computed in ℝ.
-/
import proofs.«100377_j18897856102820_2_alg».proof.Proof.LibERealCoe
import proofs.«100377_j18897856102820_2_alg».proof.Proof.LibNonnegDistrib
import proofs.«100377_j18897856102820_2_alg».proof.Proof.LossSpec

noncomputable section

open scoped BigOperators

namespace Cert.Loss

/-- ½ · (sum over t) added over d is ½ · (sum over t and d). -/
theorem half_sums {A D : Type*} [Fintype A] [Fintype D] (K : A → D → EReal) :
    ∑ d, half * ∑ t, K t d = half * ∑ t, ∑ d, K t d := by
  rw [half_eq, ← Cert.Lib.coe_nonneg_mul_sum (by norm_num : (0 : ℝ) ≤ 1 / 2), Finset.sum_comm]

/-- Adding negated reals is negating their sum, in whatever order the three summations run. -/
theorem sum_neg_of_real {A B D : Type*} [Fintype A] [Fintype B] [Fintype D] (L : A → B → D → EReal)
    (h : ∀ t b d, ∃ r : ℝ, L t b d = (r : EReal)) :
    ∑ b, ∑ d, ∑ t, -(L t b d) = -(∑ t, ∑ b, ∑ d, L t b d) := by
  choose l hl using h
  simp only [hl, ← EReal.coe_neg, Cert.Lib.coe_sum]
  congr 1
  simp only [Finset.sum_neg_distrib]
  rw [show (∑ b, ∑ d, ∑ t, l t b d) = ∑ b, ∑ t, ∑ d, l t b d from
    Finset.sum_congr rfl fun b _ => Finset.sum_comm, Finset.sum_comm]

end Cert.Loss

end
-- ==== Proof.LibIdxSums.lean ====
/-
  Sums over the index set of an array of rank 1 or 3, coordinate by coordinate.

  An index of a rank-`n` array is the tuple of its coordinates, so a sum over all indices is the iterated sum over
  the coordinate ranges (`sum_idx1`, `sum_idx3`; the rank-2 case is the library's `sum_idx2`).  A sum over the
  indices of a rank-3 array whose MIDDLE coordinate is fixed — what a reduction over the two outer axes adds up
  for one entry of its result — is the double sum over the two outer coordinates (`sum_filter_mid3`).  All of it
  holds in any commutative monoid, in particular on the extended reals where no finiteness is needed.
-/
import Idealize.ShloMosaic.Lib.ValueIdx

noncomputable section

open scoped BigOperators

namespace Cert.Lib

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The indices of a rank-3 array with middle coordinate `b`: summing over them is summing over the first and the
    last coordinate. -/
theorem sum_filter_mid3 {M : Type*} [AddCommMonoid M] {n0 n1 n2 : Nat} (f : (⟨3, ![n0, n1, n2]⟩ : Shape).Idx → M)
    (b : Fin n1) :
    ∑ i ∈ Finset.univ.filter (fun i : (⟨3, ![n0, n1, n2]⟩ : Shape).Idx => (i 1).val = b.val), f i
      = ∑ a : Fin n0, ∑ c : Fin n2, f (ix3 a b c) := by
  rw [Finset.sum_filter, sum_idx3]
  refine Finset.sum_congr rfl fun a _ => ?_
  rw [Finset.sum_comm]
  refine Finset.sum_congr rfl fun c _ => ?_
  rw [Finset.sum_eq_single b]
  · exact if_pos rfl
  · intro b' _ hb'
    exact if_neg fun e => hb' (Fin.ext e)
  · intro hb
    exact absurd (Finset.mem_univ b) hb

end Cert.Lib

end
-- ==== Proof.KernelLoss.lean ====
/-
  The host operations after the two regions take the two partial arrays to the loss.

  The first partial array ½ · Σ_t kld is added over features, then over batch rows, and divided by 4096; the second,
  Σ_t (-logp), is added over all its entries and divided by 4096.  For the first quotient, one half distributes over the
  sum over features (a non-negative real factor) and the sums over t and d commute.  For the second, adding the negated
  log-densities is negating their sum when every log-density is a real number — the one place the finiteness of the
  inputs is used.
-/
import proofs.«100377_j18897856102820_2_alg».proof.Proof.KernelRun
import proofs.«100377_j18897856102820_2_alg».proof.Proof.LossAlgebra
import proofs.«100377_j18897856102820_2_alg».proof.Proof.LibIdxSums
import Idealize.ShloMosaic.PureOps.Ideal.Laws
import Idealize.ShloMosaic.Lib.ValueIdx

noncomputable section

open scoped BigOperators

namespace Cert.KernelIdeal.KValue

open Cert.KernelIdeal Cert.KernelIdeal.Gen Idealize.ShloMosaic Idealize.ShloMosaic.ValueIdx Cert.Loss

/-- The row of the (4096, 128) array that the sum over features reads for entry `b`. -/
theorem lift_row (b : Fin 4096) (d : Fin 128) :
    (by decide : S4096x128.Reduces [1] S4096).lift (ix1 b) d = ix2 b d := by
  funext a
  match a with
  | ⟨0, _⟩ => rfl
  | ⟨1, _⟩ => rfl

/-- The host stretch at its one index: both partial arrays added over all their entries, each sum divided by 4096. -/
theorem tail_apply (o0 o1 : S4096x128.Idx → EReal) (i : S_.Idx) :
    tail (F := Ideal) o0 o1 i
      = Ideal.div (∑ b : Fin 4096, ∑ d : Fin 128, o0 (ix2 b d)) nB + Ideal.div (∑ b : Fin 4096, ∑ d : Fin 128, o1 (ix2 b d)) nB := by
  show Ideal.div (Ideal.hostReduceAdd reducesTo_S4096_S_d0
        (Ideal.hostReduceAdd reducesTo_S4096x128_S4096_d1 o0 (Ideal.ofBits .f32 0x00000000#32)) (Ideal.ofBits .f32 0x00000000#32) i) nB
      + Ideal.div (Ideal.hostReduceAdd reducesTo_S4096x128_S_d0_1 o1 (Ideal.ofBits .f32 0x00000000#32) i) nB = _
  rw [Ideal.hostReduceAdd_total reducesTo_S4096_S_d0 (fun b => b.elim0),
    Ideal.hostReduceAdd_total reducesTo_S4096x128_S_d0_1 (fun b => b.elim0), Ideal.ofBits_zero_f32, zero_add, zero_add,
    Cert.Lib.sum_idx1, sum_idx2]
  congr 2
  refine Finset.sum_congr rfl fun b _ => ?_
  rw [Ideal.hostReduceAdd_single reducesTo_S4096x128_S4096_d1 (by decide : S4096x128.Reduces [1] S4096) o0 0 (ix1 b), zero_add]
  exact Finset.sum_congr rfl fun (d : Fin 128) _ => congrArg o0 (lift_row b d)

/-- The host stretch applied to the two partial arrays is the loss, when the log-density reads real numbers. -/
theorem tail_loss (a0 a1 a2 a3 a4 a5 a6 : S64x4096x128.Idx → EReal) (a7 : S4096x64x128.Idx → EReal)
    (h2 : ∀ i, ∃ r : ℝ, a2 i = (r : EReal)) (h5 : ∀ i, ∃ r : ℝ, a5 i = (r : EReal)) (h6 : ∀ i, ∃ r : ℝ, a6 i = (r : EReal))
    (h7 : ∀ i, ∃ r : ℝ, a7 i = (r : EReal)) :
    tail (F := Ideal) (kldOut a0 a1 a3 a4) (nllOut a2 a5 a6 a7) = fun _ => loss a0 a1 a2 a3 a4 a5 a6 a7 := by
  funext i
  rw [tail_apply]
  unfold loss
  congr 2
  · refine Finset.sum_congr rfl fun b _ => ?_
    exact half_sums fun t d => kldAt a0 a1 a3 a4 t b d
  · refine sum_neg_of_real (fun t b d => logpAt a2 a5 a6 a7 t b d) fun t b d => ?_
    obtain ⟨x, hx⟩ := h2 (ix3 t b d)
    obtain ⟨dm, hdm⟩ := h5 (ix3 t b d)
    obtain ⟨ds, hds⟩ := h6 (ix3 t b d)
    obtain ⟨mk, hmk⟩ := h7 (ix3 b t d)
    unfold logpAt
    rw [hx, hdm, hds, hmk]
    exact logp_real x dm ds mk

end Cert.KernelIdeal.KValue

end
-- ==== Proof.RefRead.lean ====
/-
  The reference program's result is the loss.

  The reference computes the Kullback–Leibler term and the masked log-density of every entry (t, b, d) with whole-array
  operations, adds the first over (t, d) for each batch row b, halves, adds over b and divides by 4096; adds the second
  over all entries, negates, divides by 4096; and adds the two quotients.  Read entry by entry this is the loss as
  `Cert.Loss.loss` writes it: the sum over the entries whose batch coordinate is b is the double sum over (t, d), the sum
  over all entries the triple sum, and a sum started from the word `0.0` is the sum.  No entry needs to be finite here.
-/
import proofs.«100377_j18897856102820_2_alg».proof.Proof.Gen.ReferenceIdeal.Read
import proofs.«100377_j18897856102820_2_alg».proof.Proof.LossSpec
import proofs.«100377_j18897856102820_2_alg».proof.Proof.LibIdxSums
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Loss

/-- The reference's Kullback–Leibler array at an entry. -/
theorem kld_entry (x0 x1 x3 x4 : (⟨S64x4096x128, .f32⟩ : BufTy).Contents (Elt Ideal)) (k : S64x4096x128.Idx) :
    val_main_v10 (F := Ideal) x0 x1 x3 x4 k = kld (x0 k) (x1 k) (x3 k) (x4 k) := by
  rw [val_main_v10_apply, val_main_v9_apply]
  rfl

/-- The transposed mask at (t, b, d) is the mask at (b, t, d). -/
theorem mask_idx (t : Fin 64) (b : Fin 4096) (d : Fin 128) : idx_main_v14 (ix3 t b d) = ix3 b t d := by
  funext a
  match a with
  | ⟨0, _⟩ => rfl
  | ⟨1, _⟩ => rfl
  | ⟨2, _⟩ => rfl

/-- The reference's log-density array at an entry. -/
theorem logp_entry (x2 x5 x6 : (⟨S64x4096x128, .f32⟩ : BufTy).Contents (Elt Ideal)) (x7 : (⟨S4096x64x128, .f32⟩ : BufTy).Contents (Elt Ideal)) (t : Fin 64) (b : Fin 4096) (d : Fin 128) :
    val_main_v29 (F := Ideal) x2 x5 x6 x7 (ix3 t b d) = logpAt x2 x5 x6 x7 t b d := by
  have hm : val_main_v14 (F := Ideal) x7 (ix3 t b d) = x7 (ix3 b t d) := by rw [val_main_v14_apply, mask_idx]
  have h17 : val_main_v17 (F := Ideal) (ix3 t b d) = half := by rw [val_main_v17_apply]; rfl
  have h24 : val_main_v24 (F := Ideal) (ix3 t b d) = logc := by rw [val_main_v24_apply]; rfl
  have h26 : val_main_v26 (F := Ideal) (ix3 t b d) = half := by rw [val_main_v26_apply]; rfl
  unfold logpAt logp
  simp only [val_main_v29_apply, val_main_v25_apply, val_main_v28_apply, val_main_v27_apply, val_main_v23_apply,
    val_main_v20_apply, val_main_v22_apply, val_main_v21_apply, val_main_v19_apply, val_main_v18_apply,
    val_main_v16_apply, val_main_v15_apply, hm, h17, h24, h26, Ideal.subf_def, Ideal.mulf_def,
    Ideal.hostUnary_exp_def, Ideal.hostNegf_def, Ideal.negf_def]

/-- Batch row `b` of the reference's sum over time and features. -/
theorem kld_row (x0 x1 x3 x4 : (⟨S64x4096x128, .f32⟩ : BufTy).Contents (Elt Ideal)) (b : Fin 4096) :
    val_main_v11 (F := Ideal) x0 x1 x3 x4 (ix1 b) = ∑ t : Fin 64, ∑ d : Fin 128, kldAt x0 x1 x3 x4 t b d := by
  unfold val_main_v11
  simp only [Host.reduceAdd, Ideal.hostReduceAdd_def]
  unfold Ideal.hostReduceAdd
  have hz : val_main_cst_0 (F := Ideal) (Shape.Idx.first h_S_) = 0 := Ideal.ofBits_zero_f32
  rw [hz, zero_add]
  have hf : (Finset.univ.filter fun i : S64x4096x128.Idx => reducesTo_S64x4096x128_S4096_d0_2.drop i = ix1 b)
      = Finset.univ.filter fun i : S64x4096x128.Idx => (i 1).val = b.val := by
    refine Finset.filter_congr fun i _ => ⟨fun h => ?_, fun h => ?_⟩
    · have := congrArg (fun j : S4096.Idx => (j 0).val) h
      exact this
    · funext a
      match a with
      | ⟨0, _⟩ => exact Fin.ext h
  rw [hf, Cert.Lib.sum_filter_mid3]
  refine Finset.sum_congr rfl fun t _ => Finset.sum_congr rfl fun d _ => ?_
  exact kld_entry x0 x1 x3 x4 (ix3 t b d)

/-- The reference's result, at its one index, is the loss. -/
theorem result_eq (x0 x1 x2 x3 x4 x5 x6 : (⟨S64x4096x128, .f32⟩ : BufTy).Contents (Elt Ideal)) (x7 : (⟨S4096x64x128, .f32⟩ : BufTy).Contents (Elt Ideal)) :
    val_main_v35 (F := Ideal) x0 x1 x2 x3 x4 x5 x6 x7 = fun _ => loss x0 x1 x2 x3 x4 x5 x6 x7 := by
  funext i
  have hz6 : val_main_cst_6 (F := Ideal) (Shape.Idx.first h_S_) = 0 := Ideal.ofBits_zero_f32
  have hz5 : val_main_cst_5 (F := Ideal) (Shape.Idx.first h_S_) = 0 := Ideal.ofBits_zero_f32
  have h12 : ∀ j : S4096.Idx, val_main_v12 (F := Ideal) j = half := fun j => by rw [val_main_v12_apply]; rfl
  rw [val_main_v35_apply, val_main_v33_apply, val_main_v34_apply, val_main_v31_apply, val_main_v32_apply,
    val_main_v30_apply, hz6, hz5, zero_add, zero_add, Cert.Lib.sum_idx1, Cert.Lib.sum_idx3]
  unfold loss
  simp only [val_main_v13_apply, h12, kld_row, logp_entry, Ideal.addf_def, Ideal.hostDivf_def, Ideal.hostNegf_def,
    Ideal.negf_def, Ideal.mulf_def]
  rfl

end Cert.ReferenceIdeal.RefValue

end
-- ==== Proof.FiniteInputs.lean ====
/-
  What the precondition gives: the entries the log-density reads are real numbers.

  The precondition is the conjunction, over the ten input arrays, of "every entry's absolute value compares below +∞".
  On the extended reals an entry is ⊥, ⊤ or a real; |⊥| = |⊤| = ⊤ is not below ⊤, so an entry that passes the comparison
  is a real.  Only four of the ten conjuncts are used: the observation, the decoder's mean and log-variance, and the mask.
-/
import proofs.«100377_j18897856102820_2_alg».proof.Pre_finite_inputs
import Idealize.ShloMosaic.Lib.ReduceAll
import Idealize.ShloMosaic.Lib.Pipeline.Value
import Idealize.ShloMosaic.PureOps.Ideal.Laws
import Idealize.ShloMosaic.Lib.ValueIdx

noncomputable section

namespace Cert.Pre_finite_inputs.Finite

open Idealize.ShloMosaic Idealize.ShloMosaic.ValueIdx Cert.Pre_finite_inputs

instance : Subsingleton S_.Idx := ⟨fun a b => funext fun d => d.elim0⟩

/-- The word `0x7F800000` denotes +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One `jnp.all (|x| < ∞)` that came out true: every entry of `x` is a real number. -/
theorem all_real {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi (cmpf .olt (Host.absf x) (broadcastInDim s ![] hb (constant (F := Ideal) S_ .f32 0x7F800000#32)))
      (constantI S_ 1 1#1) hr hS j = 1#1) (i : s.Idx) : ∃ r : ℝ, x i = (r : EReal) := by
  have h1 := Host.reduce_andi_all _ _ hr hS j e i
  have hbc : broadcastInDim s ![] hb (constant (F := Ideal) S_ .f32 0x7F800000#32) i = ⊤ := by
    rw [broadcastInDim_apply _ hb _ i ix0 (fun a => a.elim0)]; exact inf_word
  refine real_of_abs_lt (x i) ?_
  have h2 : cmpf .olt (Host.absf x) (broadcastInDim s ![] hb (constant (F := Ideal) S_ .f32 0x7F800000#32)) i
      = Ideal.cmp .olt (max (x i) (-(x i))) (broadcastInDim s ![] hb (constant (F := Ideal) S_ .f32 0x7F800000#32) i) := rfl
  rw [h2, hbc] at h1
  exact h1

variable [Facts]
open Facts

/-- Under the precondition the observation, the decoder's mean, the decoder's log-variance and the mask hold real numbers. -/
theorem args_real (a0 a1 a2 a3 a4 a5 a6 : FVec Ideal S64x4096x128 .f32) (a7 a8 a9 : FVec Ideal S4096x64x128 .f32)
    (h : fn (F := Ideal) a0 a1 a2 a3 a4 a5 a6 a7 a8 a9 = fun _ => 1#1) :
    (∀ i, ∃ r : ℝ, a2 i = (r : EReal)) ∧ (∀ i, ∃ r : ℝ, a5 i = (r : EReal)) ∧ (∀ i, ∃ r : ℝ, a6 i = (r : EReal))
      ∧ (∀ i, ∃ r : ℝ, a7 i = (r : EReal)) := by
  have h0 := congrFun h ix0
  dsimp only [fn, fn_part1, fn_part2] at h0
  obtain ⟨h43, -⟩ := IntOp.andi_eq_one.1 h0
  obtain ⟨h38, -⟩ := IntOp.andi_eq_one.1 h43
  obtain ⟨h33, e7⟩ := IntOp.andi_eq_one.1 h38
  obtain ⟨h28, e6⟩ := IntOp.andi_eq_one.1 h33
  obtain ⟨h23, e5⟩ := IntOp.andi_eq_one.1 h28
  obtain ⟨h18, -⟩ := IntOp.andi_eq_one.1 h23
  obtain ⟨h13, -⟩ := IntOp.andi_eq_one.1 h18
  obtain ⟨-, e2⟩ := IntOp.andi_eq_one.1 h13
  exact ⟨all_real a2 _ _ _ ix0 e2, all_real a5 _ _ _ ix0 e5, all_real a6 _ _ _ ix0 e6, all_real a7 _ _ _ ix0 e7⟩

end Cert.Pre_finite_inputs.Finite

end
-- ==== Proof.lean ====
/-
  A variational recurrent network's loss: a Pallas kernel program against its jnp reference, equal on the extended reals
  for finite inputs.

  The loss of a batch of 4096 sequences of 64 time steps and 128 features is

      ( Σ_b ½ · Σ_t Σ_d kld(t, b, d) ) / 4096  +  ( -(Σ_t Σ_b Σ_d logp(t, b, d)) ) / 4096,

  kld the Kullback–Leibler divergence of the encoder's diagonal Gaussian from the prior's (both given by a mean and a
  log-variance), logp the log-density of the masked observation under the decoder's diagonal Gaussian (Proof/LossSpec.lean).

  The reference computes exactly this with whole-array operations (Proof/RefRead.lean).  The kernel program runs two
  kernels over 64 blocks of 64 batch rows each — the first leaves ½ · Σ_t kld at every (b, d), the second Σ_t (-logp), the
  mask transposed on chip (Proof/Payloads.lean for one block, Proof/KldBlocks.lean and Proof/NllBlocks.lean for the whole
  arrays) — and finishes on the host: sums over d and b, two divisions by 4096, one addition (Proof/KernelRun.lean).  The
  two agree because a non-negative real factor distributes over a sum of extended reals, finite sums commute, and a sum
  of negated REAL numbers is the negated sum (Proof/LossAlgebra.lean, Proof/KernelLoss.lean); the last needs the
  log-densities to be real, which the precondition gives: finite observation, decoder parameters and mask
  (Proof/FiniteInputs.lean).  The Kullback–Leibler half needs no finiteness at all.

  The three frames are the generated ones; no operation of the kernel program was rewritten for the ideal reading, so
  `preserves` is `True`.
-/
import proofs.«100377_j18897856102820_2_alg».proof.Defs
import proofs.«100377_j18897856102820_2_alg».proof.Proof.Gen.Kernel
import proofs.«100377_j18897856102820_2_alg».proof.Proof.Gen.Kernel.Skeleton
import proofs.«100377_j18897856102820_2_alg».proof.Proof.Gen.Kernel.Launch
import proofs.«100377_j18897856102820_2_alg».proof.Proof.Gen.Kernel.Points
import proofs.«100377_j18897856102820_2_alg».proof.Proof.Gen.Kernel.Frame
import proofs.«100377_j18897856102820_2_alg».proof.Proof.Gen.KernelIdeal
import proofs.«100377_j18897856102820_2_alg».proof.Proof.Gen.KernelIdeal.Skeleton
import proofs.«100377_j18897856102820_2_alg».proof.Proof.Gen.KernelIdeal.Launch
import proofs.«100377_j18897856102820_2_alg».proof.Proof.Gen.KernelIdeal.Points
import proofs.«100377_j18897856102820_2_alg».proof.Proof.Gen.KernelIdeal.Frame
import proofs.«100377_j18897856102820_2_alg».proof.Proof.Gen.ReferenceIdeal
import proofs.«100377_j18897856102820_2_alg».proof.Proof.Gen.Pre_finite_inputs
import proofs.«100377_j18897856102820_2_alg».proof.Proof.Gen.ReferenceIdeal.Run
import proofs.«100377_j18897856102820_2_alg».proof.Proof.Gen.ReferenceIdeal.Read
import proofs.«100377_j18897856102820_2_alg».proof.Proof.KldBlocks
import proofs.«100377_j18897856102820_2_alg».proof.Proof.NllBlocks
import proofs.«100377_j18897856102820_2_alg».proof.Proof.KernelRun
import proofs.«100377_j18897856102820_2_alg».proof.Proof.KernelLoss
import proofs.«100377_j18897856102820_2_alg».proof.Proof.RefRead
import proofs.«100377_j18897856102820_2_alg».proof.Proof.FiniteInputs
import Idealize.ShloMosaic.Adequacy
import Idealize.ShloMosaic.Init

noncomputable section

namespace Cert.Proof

open Idealize.ShloMosaic Idealize.ShloMosaic.TcCoe Idealize.SL.Sem Cert.Loss

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result buffer ends at the loss of its argument arrays, when the precondition holds. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W3 m ρ c (Proc.devRef .tc Cert.KernelIdeal.main_v7) = fun _ => loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h2, h5, h6, h7⟩ := Cert.Pre_finite_inputs.Finite.args_real _ _ _ _ _ _ _ _ _ _ (hpre c)
  rw [Cert.KernelIdeal.KValue.result_eq_tail, Cert.KernelIdeal.KldBlocks.final, Cert.KernelIdeal.NllBlocks.final,
    Cert.KernelIdeal.KValue.V1_main_arg2, Cert.KernelIdeal.KValue.V1_main_arg5, Cert.KernelIdeal.KValue.V1_main_arg6,
    Cert.KernelIdeal.KValue.V1_main_arg7]
  exact Cert.KernelIdeal.KValue.tail_loss _ _ _ _ _ _ _ _ h2 h5 h6 h7

/-- Both programs end with the loss of the (agreeing) argument arrays in their result buffers. -/
theorem algebraic : Cert.algebraic_KernelIdeal_ReferenceIdeal := by
  intro m ρ m' ρ' hpre hagree
  refine ⟨fun c => fun _ => loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_result m ρ hpre c), (h c).2⟩)
      (Cert.KernelIdeal.KValue.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, -, -⟩ := hagree c
    rw [Cert.ReferenceIdeal.Read.val_main_v35_eq, Cert.ReferenceIdeal.RefValue.result_eq, e0, e1, e2, e3, e4, e5, e6, e7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
